-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S800000 .f32) (main_arg2 : FVec F S128x128 .f32) (main_arg3 : FVec F S128 .f32) (main_arg4 : FVec F S128 .f32) (main_arg5 : IVec S800000 32) (main_arg6 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S10000x128 : Shape := ⟨2, ![10000, 128]⟩

abbrev nBuf : Space → Nat
  | .hbm => 26
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S100000x128, .f32⟩
  | .hbm, ⟨21, _⟩ => ⟨S800000x1, .i32⟩
  | .hbm, ⟨22, _⟩ => ⟨S100000x128, .f32⟩
  | .hbm, ⟨23, _⟩ => ⟨S1x128, .f32⟩
  | .hbm, ⟨24, _⟩ => ⟨S1x128, .f32⟩
  | .hbm, ⟨25, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S100000x128, .f32⟩
  | .hbm, ⟨21, _⟩ => ⟨S800000x1, .i32⟩
  | .hbm, ⟨22, _⟩ => ⟨S100000x128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.FusedSpec.lean ====
/-
  The layer both programs compute, as one function of the argument arrays.

  With `x` the node features (100000 rows of 128), `e` the neighbour aggregate of the same shape, `d` a learned
  per-column scale of 128 entries, `w` a 128 by 128 weight matrix and `b` a bias row of 128 entries, entry `(r, j)`
  of the result is

      sum over k < 128 of (x (r, k) - e (r, k) * (d k + 1)) * w (k, j),   plus  b j.

  The aggregate is rescaled column by column by `d + 1`, subtracted from the features, and the difference is
  projected by `w` and shifted by `b`. Everything is read on the extended reals; the constant `1` is kept as the
  binary word both programs print for it, so it is never evaluated.
-/
import Idealize.ShloMosaic.PureOps.Ideal
import Idealize.ShloMosaic.Lib.ValueIdx

noncomputable section

open scoped BigOperators

namespace Cert.FusedSpec

open Idealize.ShloMosaic Idealize.ShloMosaic.ValueIdx

/-- The word of the constant one that is added to the column scale. -/
abbrev oneWord : BitVec 32 := 0x3F800000#32

/-- Entry `(r, j)` of the layer: row `r` of `x - e * (d + 1)` against column `j` of `w`, plus `b j`. -/
def entry (x e : FVec Ideal ⟨2, ![100000, 128]⟩ .f32) (w : FVec Ideal ⟨2, ![128, 128]⟩ .f32)
    (d b : FVec Ideal ⟨1, ![128]⟩ .f32) (r : Fin 100000) (j : Fin 128) : EReal :=
  (∑ k : Fin 128, (x (ix2 r k) - e (ix2 r k) * (d (ix1 k) + Ideal.ofBits .f32 oneWord)) * w (ix2 k j)) + b (ix1 j)

/-- The whole result array: `entry` at the two coordinates of the index. -/
def layer (x e : FVec Ideal ⟨2, ![100000, 128]⟩ .f32) (w : FVec Ideal ⟨2, ![128, 128]⟩ .f32)
    (d b : FVec Ideal ⟨1, ![128]⟩ .f32) : FVec Ideal ⟨2, ![100000, 128]⟩ .f32 :=
  fun i => entry x e w d b (i 0) (i 1)

/-- Two arrays over a rank-2 index set are equal when they agree at every pair of coordinates. -/
theorem ext_ix2 {α : Type} {a b : ℕ} (X Y : (⟨2, ![a, b]⟩ : Shape).Idx → α)
    (h : ∀ (p : Fin a) (q : Fin b), X (ix2 p q) = Y (ix2 p q)) : X = Y :=
  funext fun j => by rw [eq_ix2 j]; exact h _ _

end Cert.FusedSpec

end
-- ==== Proof.RefLayer.lean ====
/-
  The reference computes the layer.

  Its last stage adds the bias row, broadcast over the rows, to a `dot_general` that contracts the columns of
  `x - e * (d + 1)` with the rows of `w`. Read at an index `(r, j)`: the product is the sum over `k` of the left
  operand at `(r, k)` times `w (k, j)`; the left operand at `(r, k)` is `x (r, k)` minus the aggregate at `(r, k)`
  times the broadcast scale, which at column `k` is `d k` plus the constant one; the bias at `(r, j)` is `b j`.
  The aggregate itself (a gather of rows, a scaling and a scatter-add) is left as the stage that produces it: both
  programs compute it by the same host operations, so it is never opened.
-/
import proofs.«133656_j16604343566777_1_alg».proof.Proof.Gen.ReferenceIdeal.Read
import proofs.«133656_j16604343566777_1_alg».proof.Proof.FusedSpec

noncomputable section

open scoped BigOperators

namespace Cert.ReferenceIdeal.RefLayer

open Cert.ReferenceIdeal Cert.ReferenceIdeal.Read Idealize.ShloMosaic Idealize.ShloMosaic.ValueIdx

/-- The broadcast column scale at `(r, k)`: the scale's entry `k` plus one. -/
theorem scale_apply (x3 : (⟨S128, .f32⟩ : BufTy).Contents (Elt Ideal)) (r : Fin 100000) (k : Fin 128) :
    val_main_v16 (F := Ideal) x3 (ix2 r k) = x3 (ix1 k) + Ideal.ofBits .f32 Cert.FusedSpec.oneWord := by
  rw [val_main_v16_apply, val_main_v15_apply, val_main_v14_apply, val_main_v13_apply, val_main_cst_1_apply]
  have e : idx_main_v15 (idx_main_v16 (ix2 r k)) = ix1 k :=
    funext fun a => Fin.ext (by match a with | ⟨0, _⟩ => rfl)
  rw [e]
  rfl

/-- The product's left operand at `(r, k)`: the feature minus the rescaled aggregate. -/
theorem diff_apply (x0 : (⟨S100000x128, .f32⟩ : BufTy).Contents (Elt Ideal)) (x1 : (⟨S800000, .f32⟩ : BufTy).Contents (Elt Ideal))
    (x3 : (⟨S128, .f32⟩ : BufTy).Contents (Elt Ideal)) (x5 x6 : (⟨S800000, .i32⟩ : BufTy).Contents (Elt Ideal))
    (r : Fin 100000) (k : Fin 128) :
    val_main_v18 (F := Ideal) x0 x1 x3 x5 x6 (ix2 r k)
      = x0 (ix2 r k) - val_main_v12 (F := Ideal) x0 x1 x5 x6 (ix2 r k) * (x3 (ix1 k) + Ideal.ofBits .f32 Cert.FusedSpec.oneWord) := by
  rw [val_main_v18_apply, val_main_v17_apply, scale_apply]
  rfl

/-- The broadcast bias at `(r, j)` is the bias entry `j`. -/
theorem bias_apply (x4 : (⟨S128, .f32⟩ : BufTy).Contents (Elt Ideal)) (r : Fin 100000) (j : Fin 128) :
    val_main_v21 (F := Ideal) x4 (ix2 r j) = x4 (ix1 j) := by
  rw [val_main_v21_apply, val_main_v20_apply]
  exact congrArg x4 (funext fun a => Fin.ext (by match a with | ⟨0, _⟩ => rfl))

/-- The reference's result is the layer of its arguments and of its own aggregate stage. -/
theorem result_eq (x0 : (⟨S100000x128, .f32⟩ : BufTy).Contents (Elt Ideal)) (x1 : (⟨S800000, .f32⟩ : BufTy).Contents (Elt Ideal))
    (x2 : (⟨S128x128, .f32⟩ : BufTy).Contents (Elt Ideal)) (x3 x4 : (⟨S128, .f32⟩ : BufTy).Contents (Elt Ideal))
    (x5 x6 : (⟨S800000, .i32⟩ : BufTy).Contents (Elt Ideal)) :
    val_main_v22 (F := Ideal) x0 x1 x2 x3 x4 x5 x6
      = Cert.FusedSpec.layer x0 (val_main_v12 (F := Ideal) x0 x1 x5 x6) x2 x3 x4 := by
  refine Cert.FusedSpec.ext_ix2 _ _ fun r j => ?_
  rw [val_main_v22_apply, val_main_v19_apply, bias_apply]
  show (∑ k : Fin 128, val_main_v18 (F := Ideal) x0 x1 x3 x5 x6 (lidx_main_v19 (ix2 r j) k) * x2 (ridx_main_v19 (ix2 r j) k)) + x4 (ix1 j)
    = (∑ k : Fin 128, (x0 (ix2 r k) - val_main_v12 (F := Ideal) x0 x1 x5 x6 (ix2 r k) * (x3 (ix1 k) + Ideal.ofBits .f32 Cert.FusedSpec.oneWord)) * x2 (ix2 k j)) + x4 (ix1 j)
  refine congrArg (· + x4 (ix1 j)) (Finset.sum_congr rfl fun k _ => ?_)
  have el : lidx_main_v19 (ix2 r j) k = ix2 r k :=
    funext fun a => Fin.ext (by match a with | ⟨0, _⟩ => rfl | ⟨1, _⟩ => rfl)
  have er : ridx_main_v19 (ix2 r j) k = ix2 k j :=
    funext fun a => Fin.ext (by match a with | ⟨0, _⟩ => rfl | ⟨1, _⟩ => rfl)
  rw [el, er, diff_apply]

end Cert.ReferenceIdeal.RefLayer

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.BodyEntry.lean ====
/-
  What the kernel body stores, read at one element of the block.

  At a grid point the body holds a block of 10000 rows of the features (`xb`), the same rows of the aggregate
  (`eb`), the whole weight matrix (`wb`), and the scale and the bias as single rows (`d2`, `b2`). It adds one
  to the scale row, spreads it over the rows, multiplies it into `eb`, subtracts from `xb`, and multiplies the
  difference by `wb` on the matrix unit into a zero accumulator; the bias row is spread over the rows and added.
  On the extended reals the two narrowings to bf16 on the way into the product are the identity, and the product
  into the zero accumulator at `(p, q)` is the plain sum over `k` of the left operand at `(p, k)` times the right
  at `(k, q)`. So element `(p, q)` of what is stored is

      sum over k of (xb (p, k) - eb (p, k) * (d2 (0, k) + 1)) * wb (k, q),  plus  b2 (0, q).
-/
import proofs.«133656_j16604343566777_1_alg».proof.Proof.Gen.KernelIdeal.Skeleton
import proofs.«133656_j16604343566777_1_alg».proof.Proof.LibPlainDot
import proofs.«133656_j16604343566777_1_alg».proof.Proof.FusedSpec
import Idealize.ShloMosaic.Lib.ValueLayout
import Idealize.ShloMosaic.PureOps.Ideal.Laws

noncomputable section

open scoped BigOperators

namespace Cert.KernelIdeal.BodyEntry

open Cert.KernelIdeal Cert.KernelIdeal.Gen Idealize.ShloMosaic Idealize.ShloMosaic.ValueIdx

/-- The body's contraction is the plain one: the left operand's columns against the right operand's rows. -/
theorem dot_plain : dot_S10000x128_S128x128_S10000x128_1_0_0_1_n_n = DotDims.plain 10000 128 128 := rfl

/-- The left operand of the product at `(p, k)`. -/
theorem lhs_apply (d2 : FVec Ideal S1x128 .f32) (xb eb : FVec Ideal S10000x128 .f32)
    (hb : S1x128.Broadcasts S10000x128) (p : Fin 10000) (k : Fin 128) :
    subf xb (mulf eb (broadcastTo S10000x128 (addf d2 (broadcast S1x128 (FloatOps.ofBits .f32 Cert.FusedSpec.oneWord))) hb)) (ix2 p k)
      = xb (ix2 p k) - eb (ix2 p k) * (d2 (ix2 (0 : Fin 1) k) + Ideal.ofBits .f32 Cert.FusedSpec.oneWord) := by
  rw [subf_apply, mulf_apply, broadcastTo_1b_ab_apply, addf_apply]
  rfl

/-- The stored value at `(p, q)`. -/
theorem pay_apply (d2 : FVec Ideal S1x128 .f32) (xb eb : FVec Ideal S10000x128 .f32) (wb : FVec Ideal S128x128 .f32)
    (b2 : FVec Ideal S1x128 .f32) (p : Fin 10000) (q : Fin 128) :
    k0_pay1 (F := Ideal) d2 xb eb wb b2 (ix2 p q)
      = (∑ k : Fin 128, (xb (ix2 p k) - eb (ix2 p k) * (d2 (ix2 (0 : Fin 1) k) + Ideal.ofBits .f32 Cert.FusedSpec.oneWord)) * wb (ix2 k q))
        + b2 (ix2 (0 : Fin 1) q) := by
  unfold k0_pay1
  simp only [shapeCast_self, matmul]
  rw [addf_apply, dot_plain, Cert.Lib.PlainDot.matmul_zero_apply, broadcastTo_1b_ab_apply]
  refine congrArg (· + b2 (ix2 (0 : Fin 1) q)) (Finset.sum_congr rfl fun k _ => ?_)
  rw [truncf_apply, truncf_apply, lhs_apply]

end Cert.KernelIdeal.BodyEntry

end
-- ==== Proof.BlockReads.lean ====
/-
  The windows' blocks at a grid point, read at one element.

  The grid has ten points. At point `t` the feature window and the aggregate window hold rows
  `10000 t … 10000 t + 9999` of their arrays; the weight window holds the whole matrix; the scale and the bias
  windows hold the one row that the host laid out from the 128-entry argument before the region. So an element of a
  block is an element of an argument array at an index computed from the point and the element's coordinates.

  The aggregate array is written by host operations before the region. It is carried here as an arbitrary array `A`
  together with the hypothesis that it is what the region finds in the second window's array: nothing below looks
  inside it.
-/
import proofs.«133656_j16604343566777_1_alg».proof.Proof.Gen.KernelIdeal.Value
import proofs.«133656_j16604343566777_1_alg».proof.Proof.FusedSpec
import Idealize.ShloMosaic.Lib.Pipeline.Value
import Idealize.ShloMosaic.Lib.ValueLayout
import Idealize.ShloMosaic.Lib.StableHlo.Run

noncomputable section

open scoped BigOperators

namespace Cert.KernelIdeal.BlockReads

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the ten grid points: the feature, aggregate and result windows move down the rows
    with the point, one block of 10000 rows per point; the weights, the scale row and the bias row stay at block
    zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- There are ten grid points. -/
theorem point_lt (t : Fin cfg0.N) : t.val < 10 := lt_of_lt_of_eq t.isLt N_0

/-! ## The arrays the region finds -/

/-- The scale row the region finds is the scale argument laid out as one row. -/
theorem V_scale (c : Dev nD) :
    (V m c main_v13 : S1x128.Idx → EReal) = shapeCast S1x128 (m ((c : Thread nD τ).loc main_arg3)) shapeCasts_S128_S1x128 := by
  dsimp only [Gen.V, Gen.hostOps0]
  after_results
  rfl

/-- The bias row the region finds is the bias argument laid out as one row. -/
theorem V_bias (c : Dev nD) :
    (V m c main_v14 : S1x128.Idx → EReal) = shapeCast S1x128 (m ((c : Thread nD τ).loc main_arg4)) shapeCasts_S128_S1x128 := by
  dsimp only [Gen.V, Gen.hostOps0]
  after_results
  rfl

/-! ## Each window's block at a point, read at an element -/

/-- Row `p` of the feature block at point `t` is row `10000 t + p` of the features. -/
theorem x_block (c : Dev nD) (t : Fin cfg0.N) (p : Fin 10000) (k : Fin 128) (r : Fin 100000) (hr : r.val = t.val * 10000 + p.val) :
    (iblk m c 0 t : S10000x128.Idx → EReal) (ix2 p k) = (m ((c : Thread nD τ).loc main_arg0) : S100000x128.Idx → EReal) (ix2 r k) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 10000 + 1 * p.val = r.val; rw [e0, hr]; omega
  | ⟨1, _⟩ => show win0_0.index t 1 * 128 + 1 * k.val = k.val; rw [e1]; omega

/-- Row `p` of the aggregate block at point `t` is row `10000 t + p` of the aggregate the region finds. -/
theorem e_block (c : Dev nD) (A : S100000x128.Idx → EReal)
    (hA : (V m c (Pipeline.arrRef spec0 (1 : Fin cfg0.W)) : S100000x128.Idx → EReal) = A)
    (t : Fin cfg0.N) (p : Fin 10000) (k : Fin 128) (r : Fin 100000) (hr : r.val = t.val * 10000 + p.val) :
    (iblk m c 1 t : S10000x128.Idx → EReal) (ix2 p k) = A (ix2 r k) := by
  obtain ⟨-, -, e0, e1, -⟩ := idx_facts t
  unfold iblk
  rw [hA, View.read_apply]
  refine congrArg A (funext fun a => Fin.ext ?_)
  match a with
  | ⟨0, _⟩ => show win0_1.index t 0 * 10000 + 1 * p.val = r.val; rw [e0, hr]; omega
  | ⟨1, _⟩ => show win0_1.index t 1 * 128 + 1 * k.val = k.val; rw [e1]; omega

/-- The weight block at every point is the whole weight matrix. -/
theorem w_block (c : Dev nD) (t : Fin cfg0.N) (k q : Fin 128) :
    (iblk m c 2 t : S128x128.Idx → EReal) (ix2 k q) = (m ((c : Thread nD τ).loc main_arg2) : S128x128.Idx → EReal) (ix2 k q) := by
  obtain ⟨-, -, -, -, e0, e1, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 128 + 1 * k.val = k.val; rw [e0]; omega
  | ⟨1, _⟩ => show win0_2.index t 1 * 128 + 1 * q.val = q.val; rw [e1]; omega

/-- The scale block at every point, at column `k`, is entry `k` of the scale argument. -/
theorem scale_block (c : Dev nD) (t : Fin cfg0.N) (k : Fin 128) :
    (iblk m c 3 t : S1x128.Idx → EReal) (ix2 (0 : Fin 1) k) = (m ((c : Thread nD τ).loc main_arg3) : S128.Idx → EReal) (ix1 k) := by
  obtain ⟨-, -, -, -, -, -, e0, e1, -⟩ := idx_facts t
  unfold iblk
  rw [View.read_apply]
  show V m c main_v13 _ = _
  rw [V_scale]
  refine (congrArg (shapeCast S1x128 (m ((c : Thread nD τ).loc main_arg3)) shapeCasts_S128_S1x128) (?_ : _ = ix2 (0 : Fin 1) k)).trans
    (shapeCast_a_1a_apply _ _ 0 k)
  funext a; apply Fin.ext
  match a with
  | ⟨0, _⟩ => show win0_3.index t 0 * 1 + 1 * 0 = 0; rw [e0]
  | ⟨1, _⟩ => show win0_3.index t 1 * 128 + 1 * k.val = k.val; rw [e1]; omega

/-- The bias block at every point, at column `q`, is entry `q` of the bias argument. -/
theorem bias_block (c : Dev nD) (t : Fin cfg0.N) (q : Fin 128) :
    (iblk m c 4 t : S1x128.Idx → EReal) (ix2 (0 : Fin 1) q) = (m ((c : Thread nD τ).loc main_arg4) : S128.Idx → EReal) (ix1 q) := by
  obtain ⟨-, -, -, -, -, -, -, -, e0, e1, -⟩ := idx_facts t
  unfold iblk
  rw [View.read_apply]
  show V m c main_v14 _ = _
  rw [V_bias]
  refine (congrArg (shapeCast S1x128 (m ((c : Thread nD τ).loc main_arg4)) shapeCasts_S128_S1x128) (?_ : _ = ix2 (0 : Fin 1) q)).trans
    (shapeCast_a_1a_apply _ _ 0 q)
  funext a; apply Fin.ext
  match a with
  | ⟨0, _⟩ => show win0_4.index t 0 * 1 + 1 * 0 = 0; rw [e0]
  | ⟨1, _⟩ => show win0_4.index t 1 * 128 + 1 * q.val = q.val; rw [e1]; omega

end Cert.KernelIdeal.BlockReads

end
-- ==== Proof.Blocks.lean ====
/-
  From what each grid point writes back to the whole result array.

  At point `t` the kernel body stores, at element `(p, q)` of its block, the sum over `k` of
  `(xb (p, k) - eb (p, k) * (d2 (0, k) + 1)) * wb (k, q)` plus `b2 (0, q)`, where `xb`, `eb`, `wb`, `d2`, `b2` are the
  windows' blocks at `t`. Those blocks are rows `10000 t + p` of the features and of the aggregate, the whole
  weights, and the scale and bias entries, so the stored element is entry `(10000 t + p, q)` of the layer: point `t`
  writes back rows `10000 t … 10000 t + 9999` of the layer. The ten blocks tile the 100000 rows (row `n` lies in the
  block of point `n / 10000`), so after the run the result array is the layer.

  The aggregate is an arbitrary array `A` that the region finds in the second window's array (`hA`).
-/
import proofs.«133656_j16604343566777_1_alg».proof.Proof.Gen.KernelIdeal.Value
import proofs.«133656_j16604343566777_1_alg».proof.Proof.BodyEntry
import proofs.«133656_j16604343566777_1_alg».proof.Proof.BlockReads
import proofs.«133656_j16604343566777_1_alg».proof.Proof.FusedSpec
import Idealize.ShloMosaic.Lib.Pipeline.Value
import Idealize.ShloMosaic.Lib.ValueLayout
import Idealize.ShloMosaic.Lib.StableHlo.Run

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.KernelIdeal.BlockReads
open Idealize.ShloMosaic.Pipeline (Dat)

variable (m : (ℓ : Loc nD τ sig) → Buf (Elt Ideal) ℓ) (ρ : Dev nD → PrngReg)

/-- The result array: the layer of the arguments and of the aggregate `A`. -/
abbrev result (c : Dev nD) (A : S100000x128.Idx → EReal) : S100000x128.Idx → EReal :=
  Cert.FusedSpec.layer (m ((c : Thread nD τ).loc main_arg0)) A (m ((c : Thread nD τ).loc main_arg2))
    (m ((c : Thread nD τ).loc main_arg3)) (m ((c : Thread nD τ).loc main_arg4))

/-- Point `t` writes back rows `10000 t … 10000 t + 9999` of the layer: each stored element only reads row
    `10000 t + p` of the features and of the aggregate, the whole weights, the scale and the bias. -/
theorem flushed_eq (c : Dev nD) (A : S100000x128.Idx → EReal)
    (hA : (V m c (Pipeline.arrRef spec0 (1 : Fin cfg0.W)) : S100000x128.Idx → EReal) = A) (t : Fin cfg0.N) :
    (dats m 0 c).flushed 5 t = ((cfg0.win 5).blk t).view.read (Elt Ideal) (result m c A) := by
  rw [flushed5]
  unfold out0_5
  rw [View.canon_unit_zero hz]
  simp only [View.ld_unit_zero (S := S10000x128) hz, View.ld_unit_zero (S := S128x128) hz, View.ld_unit_zero (S := S1x128) hz]
  show (k0_pay1 (iblk m c 3 t) (iblk m c 0 t) (iblk m c 1 t) (iblk m c 2 t) (iblk m c 4 t) : S10000x128.Idx → EReal)
    = fun y => result m c A (((cfg0.win 5).blk t).view.emb y)
  refine Cert.FusedSpec.ext_ix2 _ _ fun p q => ?_
  have ht := point_lt t
  obtain ⟨r, hr⟩ : ∃ r : Fin 100000, r.val = t.val * 10000 + p.val := ⟨⟨t.val * 10000 + p.val, by have := p.isLt; omega⟩, rfl⟩
  obtain ⟨-, -, -, -, -, -, -, -, -, -, e0, e1⟩ := idx_facts t
  have hemb : ((cfg0.win 5).blk t).view.emb (ix2 p q) = ix2 r q := by
    funext a; apply Fin.ext
    match a with
    | ⟨0, _⟩ => show win0_5.index t 0 * 10000 + 1 * p.val = r.val; rw [e0, hr]; omega
    | ⟨1, _⟩ => show win0_5.index t 1 * 128 + 1 * q.val = q.val; rw [e1]; omega
  refine (BodyEntry.pay_apply (iblk m c 3 t) (iblk m c 0 t) (iblk m c 1 t) (iblk m c 2 t) (iblk m c 4 t) p q).trans ?_
  show _ = result m c A (((cfg0.win 5).blk t).view.emb (ix2 p q))
  rw [hemb, bias_block]
  show _ = Cert.FusedSpec.entry _ _ _ _ _ r q
  unfold Cert.FusedSpec.entry
  refine congrArg (· + (m ((c : Thread nD τ).loc main_arg4) : S128.Idx → EReal) (ix1 q)) (Finset.sum_congr rfl fun k _ => ?_)
  rw [x_block m c t p k r hr, e_block m c A hA t p k r hr, scale_block, w_block]

/-- An index of the result array is in point `t`'s block iff each coordinate is in the block's range. -/
theorem mem_blk (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v15).slice (win0_5.rect t)).set ↔ _
  rw [View.set_slice_whole, Rect.mem_set_unit]
  exact Iff.rfl

/-- Every row is in some point's block: row `n` in the block of point `n / 10000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t 0 * 10000 ≤ (i 0).val ∧ (i 0).val < win0_5.index t 0 * 10000 + 10000; rw [e0, ht]; omega
  | ⟨1, _⟩ => show win0_5.index t 1 * 128 ≤ (i 1).val ∧ (i 1).val < win0_5.index t 1 * 128 + 128; rw [e1]; omega

/-- So the result array ends holding the layer. -/
theorem final (c : Dev nD) (A : S100000x128.Idx → EReal)
    (hA : (V m c (Pipeline.arrRef spec0 (1 : Fin cfg0.W)) : S100000x128.Idx → EReal) = A) :
    (dats m 0 c).arrAt 5 cfg0.N = result m c A :=
  (dats m 0 c).arrAt_eq_of_cover 5 (result m c A) (fun t _ => flushed_eq m c A hA t) cover

/-- The kernel's run, read: the result array at the layer, the arguments unchanged. -/
theorem run (A : Dev nD → S100000x128.Idx → EReal)
    (hA : ∀ c, (V m c (Pipeline.arrRef spec0 (1 : Fin cfg0.W)) : S100000x128.Idx → EReal) = A c) :
    θ_run defs (onTc (τ := τ) (main (F := Ideal))) ⟨m, fun _ => 0, ρ⟩ fun r => ∀ c : Dev nD,
      r.2.mem ((c : Thread nD τ).loc main_v15) = result m c (A c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (A c) (hA c)), (h c).2⟩) (Value.run_blocks m ρ)

end Cert.KernelIdeal.Blocks

end
-- ==== Proof.lean ====
/-
  The certificate of a fused graph layer against its plain reference.

  Both programs first aggregate neighbour features on the host: a gather of the feature rows named by the edges'
  source columns, a scaling by the edge values, and a scatter-add into the rows named by the edges' targets. Call the
  result `e`. The reference then computes, with host operations, `(x - e * (d + 1)) · w + b`; the kernel hands `x`,
  `e`, `w` and the scale and bias (each laid out as one row) to a grid of ten points, each of which computes
  10000 rows of the same expression with one product on the matrix unit.

  On the extended reals the two sides are one function of the arguments, with the operations in the same order: the
  narrowings to bf16 on the way into the kernel's product are the identity there, and the product into a zero
  accumulator and the host's contraction are the same sum over the 128 contracted columns. No law of arithmetic that
  could fail at an infinity is used, so the precondition (finite inputs) is never opened. The aggregate `e` is the
  same host computation in both programs and is carried through as one array that is never read.

  The modules: `FusedSpec` states the layer; `RefLayer` reads the reference's stages down to it; `BodyEntry` reads
  one stored element of the kernel body; `Blocks` goes from what each grid point writes back to the whole result
  array and the kernel's run; here the two runs are set side by side. The three frames are the generated ones (the
  reference's is its generated run with the result forgotten), and the idealization rewrote nothing, so the
  `preserves` claim is `True`.
-/
import proofs.«133656_j16604343566777_1_alg».proof.Defs
import proofs.«133656_j16604343566777_1_alg».proof.Proof.Gen.Kernel
import proofs.«133656_j16604343566777_1_alg».proof.Proof.Gen.Kernel.Skeleton
import proofs.«133656_j16604343566777_1_alg».proof.Proof.Gen.Kernel.Launch
import proofs.«133656_j16604343566777_1_alg».proof.Proof.Gen.Kernel.Points
import proofs.«133656_j16604343566777_1_alg».proof.Proof.Gen.Kernel.Frame
import proofs.«133656_j16604343566777_1_alg».proof.Proof.Gen.KernelIdeal
import proofs.«133656_j16604343566777_1_alg».proof.Proof.Gen.KernelIdeal.Skeleton
import proofs.«133656_j16604343566777_1_alg».proof.Proof.Gen.KernelIdeal.Launch
import proofs.«133656_j16604343566777_1_alg».proof.Proof.Gen.KernelIdeal.Points
import proofs.«133656_j16604343566777_1_alg».proof.Proof.Gen.KernelIdeal.Frame
import proofs.«133656_j16604343566777_1_alg».proof.Proof.Gen.ReferenceIdeal
import proofs.«133656_j16604343566777_1_alg».proof.Proof.Gen.Pre_finite_inputs
import proofs.«133656_j16604343566777_1_alg».proof.Proof.Gen.KernelIdeal.Value
import proofs.«133656_j16604343566777_1_alg».proof.Proof.Gen.ReferenceIdeal.Run
import proofs.«133656_j16604343566777_1_alg».proof.Proof.Gen.ReferenceIdeal.Read
import proofs.«133656_j16604343566777_1_alg».proof.Proof.RefLayer
import proofs.«133656_j16604343566777_1_alg».proof.Proof.Blocks
import Idealize.ShloMosaic.Lib.StableHlo.Run
import Idealize.ShloMosaic.Adequacy
import Idealize.ShloMosaic.Init

noncomputable section

open Idealize.ShloMosaic Idealize.ShloMosaic.TcCoe Idealize.SL.Sem

namespace Cert.Proof.LayerClaims

/-- The aggregate of the arguments, as the reference's stage computes it. -/
abbrev aggregate (m : (ℓ : Loc Cert.KernelIdeal.nD Cert.KernelIdeal.τ Cert.KernelIdeal.sig) → Buf (Elt Ideal) ℓ)
    (c : Dev Cert.KernelIdeal.nD) : Cert.KernelIdeal.S100000x128.Idx → EReal :=
  Cert.ReferenceIdeal.Read.val_main_v12 (F := Ideal)
    (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg5))
    (m ((c : Thread Cert.KernelIdeal.nD Cert.KernelIdeal.τ).loc Cert.KernelIdeal.main_arg6))

/-- The array the kernel's region finds in its second window is that aggregate: the host operations before the
    region are the reference's, in the same order, applied to the launch contents. -/
theorem aggregate_eq (m : (ℓ : Loc Cert.KernelIdeal.nD Cert.KernelIdeal.τ Cert.KernelIdeal.sig) → Buf (Elt Ideal) ℓ)
    (c : Dev Cert.KernelIdeal.nD) :
    (Cert.KernelIdeal.Gen.V m c (Pipeline.arrRef Cert.KernelIdeal.spec0 (1 : Fin Cert.KernelIdeal.cfg0.W)) : Cert.KernelIdeal.S100000x128.Idx → EReal)
      = aggregate m c := by
  show (Cert.KernelIdeal.Gen.V m c Cert.KernelIdeal.main_v12 : Cert.KernelIdeal.S100000x128.Idx → EReal) = _
  dsimp only [Cert.KernelIdeal.Gen.V, Cert.KernelIdeal.Gen.hostOps0]
  after_results
  unfold aggregate Cert.ReferenceIdeal.Read.val_main_v12 Cert.ReferenceIdeal.Read.val_main_v10 Cert.ReferenceIdeal.Read.val_main_v11
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.ReferenceIdeal.Read.val_main_cst
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the layer of those arguments: the kernel's
    result array by its blocks, the reference's by its stages, and the aggregate inside both is one array. -/
theorem algebraic : Cert.algebraic_KernelIdeal_ReferenceIdeal := by
  intro m ρ m' ρ' _ hagree
  refine ⟨fun c => Cert.KernelIdeal.Blocks.result m c (aggregate m c),
    Cert.KernelIdeal.Blocks.run m ρ (aggregate m) (aggregate_eq m), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v22_eq, Cert.ReferenceIdeal.RefLayer.result_eq, a0, a1, a2, a3, a4, a5, a6]

end Cert.Proof.LayerClaims

namespace Cert.Proof

theorem claim : Cert.Claim := ⟨Cert.Kernel.Gen.facts, Cert.KernelIdeal.Gen.facts, Cert.ReferenceIdeal.Gen.facts, Cert.Pre_finite_inputs.Gen.facts,
  LayerClaims.frame_k, LayerClaims.frame_ki, LayerClaims.frame_ri, LayerClaims.preserves, LayerClaims.algebraic⟩

end Cert.Proof

end
